-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S64x64 : Shape := ⟨2, ![64, 64]⟩
abbrev S64 : Shape := ⟨1, ![64]⟩
abbrev S64x128 : Shape := ⟨2, ![64, 128]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x128 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_v33

def fn {F : FTy → Type} [FloatOps F] (main_arg0 : FVec F S2x8x2048x64 .f32) (main_arg1 : FVec F S2x8x2048x64 .f32) (main_arg2 : FVec F S64x64 .f32) (main_arg3 : FVec F S64 .f32) (main_arg4 : FVec F S64x64 .f32) (main_arg5 : FVec F S64 .f32) (main_arg6 : FVec F S64x128 .f32) (main_arg7 : FVec F S64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S2x8x2048x64 : Shape := ⟨4, ![2, 8, 2048, 64]⟩
abbrev S64x64 : Shape := ⟨2, ![64, 64]⟩
abbrev S64 : Shape := ⟨1, ![64]⟩
abbrev S64x128 : Shape := ⟨2, ![64, 128]⟩
abbrev S1x1x2048x64 : Shape := ⟨4, ![1, 1, 2048, 64]⟩
abbrev S2048x2048 : Shape := ⟨2, ![2048, 2048]⟩
abbrev S2048x64 : Shape := ⟨2, ![2048, 64]⟩
abbrev S1x64 : Shape := ⟨2, ![1, 64]⟩
abbrev S2048 : Shape := ⟨1, ![2048]⟩
abbrev S1x2048 : Shape := ⟨2, ![1, 2048]⟩
abbrev S2048x1 : Shape := ⟨2, ![2048, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S2x8x2048x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x128, .f32⟩
  | .local _ .vmem, ⟨9, _⟩ => ⟨S64, .f32⟩
  | .local _ .vmem, ⟨10, _⟩ => ⟨S1x1x2048x64, .f32⟩
  | .local _ .vmem, ⟨11, _⟩ => ⟨S1x1x2048x64, .f32⟩
  | .local _ .vmem, ⟨12, _⟩ => ⟨S2048x2048, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  inb_S64x128_S64x128_0_0 : ∀ a, (![0, 0] : Fin 2 → Nat) a + S64x128.size a ≤ S64x128.size a
  h_S64x128 : 0 < S64x128.numel
  shapeCasts_S64_S1x64 : S64.ShapeCasts S1x64
  broadcasts_S1x64_S2048x64 : S1x64.Broadcasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S2048x2048_S2048 : S2048x2048.Reduces [0] S2048
  shapeCasts_S2048_S1x2048 : S2048.ShapeCasts S1x2048
  broadcasts_S1x2048_S2048x2048 : S1x2048.Broadcasts S2048x2048
  slices_S64x128_o0_0_S64x64 : S64x128.Slices ![0, 0] S64x64
  slices_S64x128_o0_64_S64x64 : S64x128.Slices ![0, 64] S64x64
  reduces_S2048x2048_S2048_2 : S2048x2048.Reduces [1] S2048
  shapeCasts_S2048_S2048x1 : S2048.ShapeCasts S2048x1
  broadcasts_S2048x1_S2048x64 : S2048x1.Broadcasts S2048x64
  shapeCasts_S2048x64_S1x1x2048x64 : S2048x64.ShapeCasts S1x1x2048x64
  dot_S2048x64_S64x64_S2048x64_1_1_0_0_n_n_wf : DotDims.WF S2048x64 S64x64 S2048x64 [1] [1] [0] [0] [] []
  dot_S2048x64_S2048x64_S2048x2048_1_1_0_0_n_n_wf : DotDims.WF S2048x64 S2048x64 S2048x2048 [1] [1] [0] [0] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x64.size a ≤ S2x8x2048x64.size a
  hwx0_0 : ∀ i : grid0.Coords, EltTy.bits .f32 = 32 ∨ (Rect.block (s := S2x8x2048x64) S1x1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x8x2048x64.size a
  hwx0_1 : ∀ i : grid0.Coords, EltTy.bits .f32 = 32 ∨ (Rect.block (s := S2x8x2048x64) S1x1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2048x64.size a ≤ S2x8x2048x64.size a
  hwx0_8 : ∀ i : grid0.Coords, EltTy.bits .f32 = 32 ∨ (Rect.block (s := S2x8x2048x64) S1x1x2048x64.size (cc0_transform_8 i) (hinb0_8 i)).WholeWords (EltTy.packing .f32)

variable [Facts₀]

def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg0) S1x1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1x2048x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S64x64 : Shape := ⟨2, ![64, 64]⟩
abbrev S64 : Shape := ⟨1, ![64]⟩
abbrev S64x128 : Shape := ⟨2, ![64, 128]⟩
abbrev S1x1x1x64 : Shape := ⟨4, ![1, 1, 1, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x1x2048 : Shape := ⟨4, ![2, 8, 1, 2048]⟩
abbrev S2x8x2048x1 : Shape := ⟨4, ![2, 8, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S2x8x2048x64, .f32⟩
  | .hbm, ⟨9, _⟩ => ⟨S1x1x1x64, .f32⟩
  | .hbm, ⟨10, _⟩ => ⟨S2x8x2048x64, .f32⟩
  | .hbm, ⟨11, _⟩ => ⟨S2x8x2048x64, .f32⟩
  | .hbm, ⟨12, _⟩ => ⟨S2x8x2048x64, .f32⟩
  | .hbm, ⟨13, _⟩ => ⟨S1x1x1x64, .f32⟩
  | .hbm, ⟨14, _⟩ => ⟨S2x8x2048x64, .f32⟩
  | .hbm, ⟨15, _⟩ => ⟨S2x8x2048x64, .f32⟩
  | .hbm, ⟨16, _⟩ => ⟨S2x8x2048x2048, .f32⟩
  | .hbm, ⟨17, _⟩ => ⟨S_, .f32⟩
  | .hbm, ⟨18, _⟩ => ⟨S2x8x2048, .f32⟩
  | .hbm, ⟨19, _⟩ => ⟨S_, .f32⟩
  | .hbm, ⟨20, _⟩ => ⟨S2x8x2048, .f32⟩
  | .hbm, ⟨21, _⟩ => ⟨S2x8x2048, .f32⟩
  | .hbm, ⟨22, _⟩ => ⟨S2x8x1x2048, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | .hbm, ⟨26, _⟩ => ⟨S_, .f32⟩
  | .hbm, ⟨27, _⟩ => ⟨S2x8x2048, .f32⟩
  | .hbm, ⟨28, _⟩ => ⟨S2x8x1x2048, .f32⟩
  | .hbm, ⟨29, _⟩ => ⟨S2x8x2048x2048, .f32⟩
  | .hbm, ⟨30, _⟩ => ⟨S2x8x2048x2048, .f32⟩
  | .hbm, ⟨31, _⟩ => ⟨S64x64, .f32⟩
  | .hbm, ⟨32, _⟩ => ⟨S64x64, .f32⟩
  | .hbm, ⟨33, _⟩ => ⟨S2x8x2048x64, .f32⟩
  | .hbm, ⟨34, _⟩ => ⟨S2x8x2048x64, .f32⟩
  | .hbm, ⟨35, _⟩ => ⟨S2x8x2048x64, .f32⟩
  | .hbm, ⟨36, _⟩ => ⟨S_, .f32⟩
  | .hbm, ⟨37, _⟩ => ⟨S2x8x2048, .f32⟩
  | .hbm, ⟨38, _⟩ => ⟨S2x8x2048x1, .f32⟩
  | .hbm, ⟨39, _⟩ => ⟨S1x1x1x64, .f32⟩
  | .hbm, ⟨40, _⟩ => ⟨S2x8x2048x64, .f32⟩
  | .hbm, ⟨41, _⟩ => ⟨S2x8x2048x64, .f32⟩
  | .hbm, ⟨42, _⟩ => ⟨S2x8x2048x64, .f32⟩
  | .hbm, ⟨43, _⟩ => ⟨S2x8x2048x64, .f32⟩
  | .hbm, ⟨44, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S2x8x2048x64_0_1_2_3 : S1x1x1x64.BroadcastsInDim S2x8x2048x64 (![0, 1, 2, 3] : Fin 4 → Fin S2x8x2048x64.rank)
  reducesTo_S2x8x2048x2048_S2x8x2048_d2 : S2x8x2048x2048.ReducesTo [2] S2x8x2048
  h_S_ : 0 < S_.numel
  bcast_S_S2x8x2048 : S_.BroadcastsInDim S2x8x2048 (![] : Fin 0 → Fin S2x8x2048.rank)
  bcast_S2x8x2048_S2x8x1x2048_0_1_3 : S2x8x2048.BroadcastsInDim S2x8x1x2048 (![0, 1, 3] : Fin 3 → Fin S2x8x1x2048.rank)
  bcast_S2x8x1x2048_S2x8x2048x2048_0_1_2_3 : S2x8x1x2048.BroadcastsInDim S2x8x2048x2048 (![0, 1, 2, 3] : Fin 4 → Fin S2x8x2048x2048.rank)
  slices_S64x128_S64x64_0_0 : S64x128.Slices ![0, 0] S64x64
  slices_S64x128_S64x64_0_64 : S64x128.Slices ![0, 64] S64x64
  reducesTo_S2x8x2048x2048_S2x8x2048_d3 : S2x8x2048x2048.ReducesTo [3] S2x8x2048
  bcast_S2x8x2048_S2x8x2048x1_0_1_2 : S2x8x2048.BroadcastsInDim S2x8x2048x1 (![0, 1, 2] : Fin 3 → Fin S2x8x2048x1.rank)
  bcast_S2x8x2048x1_S2x8x2048x64_0_1_2_3 : S2x8x2048x1.BroadcastsInDim S2x8x2048x64 (![0, 1, 2, 3] : Fin 4 → Fin S2x8x2048x64.rank)
  dot_S2x8x2048x64_S64x64_S2x8x2048x64_3_1_012_0_n_n_wf : DotDims.WF S2x8x2048x64 S64x64 S2x8x2048x64 [3] [1] [0, 1, 2] [0] [] []
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S64x64_S2x8x2048x64_3_1_012_0_n_n : DotDims S2x8x2048x64 S64x64 S2x8x2048x64 where
  lhsContracting := [3]
  rhsContracting := [1]
  lhsNonContracting := [0, 1, 2]
  rhsNonContracting := [0]
  lhsBatch := []
  rhsBatch := []
  wf := dot_S2x8x2048x64_S64x64_S2x8x2048x64_3_1_012_0_n_n_wf
def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.AttnBlock.lean ====
import proofs.«105342_j28664611733586_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

/-! # One grid point's block, as one term of its eight input blocks

The body keeps the 2048 × 2048 score matrix in one scratch buffer and rewrites it in place three times: the scores,
then the shifted exponentials, then the normalised weights. Every store covers the whole buffer and every load reads
the whole buffer, so each load reads exactly the payload of the store before it, and what the body leaves in the
output block is a composition of the payload terms: the scores S of the two projected inputs, E = exp (S − colmax S),
A = E / colsum E, and the output A · qproj + rowsum A · (kproj + bias). -/

namespace Idealize.ShloMosaic.View

variable {Val : EltTy → Type} {S : Shape} {e : EltTy}

/-- A load through the whole-shape rectangle reads the payload of the NEWEST store through that rectangle, whatever
    the older stores were: the newest store covers every index. -/
theorem readCov_cons_whole [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self .., by
    show y ∈ (Rect.whole S).set; rw [Rect.set_whole]; exact Finset.mem_univ y⟩), canon_cons_unit_zero rfl, ld_unit_zero rfl]

end Idealize.ShloMosaic.View

namespace Cert.KernelIdeal.Block

open Cert.KernelIdeal Cert.KernelIdeal.Gen

variable {F : FTy → Type} [FloatOps F]

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The attention weights of one (batch, head) slice: the scores of the projected keys against the projected queries,
    shifted by each column's maximum, exponentiated, and divided by each column's sum. -/
def weights (x0 x1 : Vec F S1x1x2048x64 .f32) (x2 : Vec F S64x64 .f32) (x3 : Vec F S64 .f32) (x4 : Vec F S64x64 .f32) (x5 : Vec F S64 .f32) :
    FVec F S2048x2048 .f32 :=
  k0_pay2 (k0_pay1 (k0_pay7 (k0_pay6 x0 x1 x2 x3 x4 x5) (k0_pay6 x0 x1 x2 x3 x4 x5)))
    (k0_pay1 (k0_pay7 (k0_pay6 x0 x1 x2 x3 x4 x5) (k0_pay6 x0 x1 x2 x3 x4 x5)))

/-- What the body leaves in the output block: the weights against the projected queries, plus each key row's weight
    total times that key's own projection and the bias. -/
def blockOut (x0 x1 : Vec F S1x1x2048x64 .f32) (x2 : Vec F S64x64 .f32) (x3 : Vec F S64 .f32) (x4 : Vec F S64x64 .f32) (x5 : Vec F S64 .f32) (x6 : Vec F S64x128 .f32) (x7 : Vec F S64 .f32) : FVec F S1x1x2048x64 .f32 :=
  k0_pay3 x6 x7 (k0_pay4 x0 x2 x3) (k0_pay5 x1 x4 x5) (weights x0 x1 x2 x3 x4 x5) (weights x0 x1 x2 x3 x4 x5)

/-- The piece the body's run found for the output block, read back, is that term: every load of the scratch buffer
    reads the payload of the whole-buffer store just before it. -/
theorem out_eq (c : Dev nD) (i : grid0.Coords) (arg2 : Memref sig .tc .vmem S1x1x2048x64 .f32) (harg2 : arg2.IsWhole) (arg3 : Memref sig .tc .vmem S1x1x2048x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x128 .f32) (harg8 : arg8.IsWhole) (arg9 : Memref sig .tc .vmem S64 .f32) (harg9 : arg9.IsWhole) (arg10 : Memref sig .tc .vmem S1x1x2048x64 .f32) (harg10 : arg10.IsWhole) (arg11 : Memref sig .tc .vmem S2048x2048 .f32) (harg11 : arg11.IsWhole)
    (x0 : Vec F S1x1x2048x64 .f32) (x1 : Vec F S1x1x2048x64 .f32) (x2 : Vec F S64x64 .f32) (x3 : Vec F S64 .f32) (x4 : Vec F S64x64 .f32) (x5 : Vec F S64 .f32) (x6 : Vec F S64x128 .f32) (x7 : Vec F S64 .f32) :
    out0_A_8 c i arg2 harg2 arg3 harg3 arg4 harg4 arg5 harg5 arg6 harg6 arg7 harg7 arg8 harg8 arg9 harg9 arg10 harg10 arg11 harg11 x0 x1 x2 x3 x4 x5 x6 x7 = blockOut x0 x1 x2 x3 x4 x5 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_unit_zero hz4]
  simp only [View.readCov_cons_whole (S := S2048x2048) _ hz2, View.readAt_eq_ld, harg2.read_unread, harg3.read_unread,
    harg4.read_unread, harg5.read_unread, harg6.read_unread, harg7.read_unread, harg8.read_unread, harg9.read_unread,
    View.ld_unit_zero (S := S1x1x2048x64) hz4, View.ld_unit_zero (S := S64x64) hz2, View.ld_unit_zero (S := S64) hz1,
    View.ld_unit_zero (S := S64x128) hz2]
  rfl

end Cert.KernelIdeal.Block

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.AttnSpec.lean ====
import Idealize.ShloMosaic.PureOps.Ideal
import Idealize.ShloMosaic.PureOps.Ideal.Laws
import Idealize.ShloMosaic.Lib.ValueIdx
import proofs.«105342_j28664611733586_1_alg».proof.Proof.LibDotNT
import proofs.«105342_j28664611733586_1_alg».proof.Proof.LibDense

set_option maxRecDepth 16384

noncomputable section

/-! # The attention slice as one function of its inputs, on the extended reals

For one (batch, head) slice with key-side input Lb : [2048, 64] and query-side input Hb : [2048, 64]:

  K = Lb · Wkᵀ + bk,  Q = Hb · Wqᵀ + bq                (projected keys and queries, [2048, 64])
  S (k, q) = ∑ s, K (k, s) · Q (q, s)                     (scores, [2048, 2048])
  E (k, q) = exp (S (k, q) − max over k' of S (k', q))    (the maximum folded from −∞ down column q)
  A (k, q) = E (k, q) / ∑ k', E (k', q)                   (softmax over the KEY axis: each column sums to one)
  out (k, t) = ∑ q, A (k, q) · QP (q, t) + (∑ q, A (k, q)) · (KP (k, t) + bv t)

with QP = Q · Wv[:, :64]ᵀ and KP = K · Wv[:, 64:]ᵀ. Both programs compute exactly these operations in exactly this
arrangement, so nothing below needs any entry to be finite and no algebraic law is used beyond 0 + x = x. -/

namespace Cert.Attn

open Idealize.ShloMosaic Idealize.ShloMosaic.ValueIdx

/-- A rank-2 shape. -/
abbrev Mat (a b : ℕ) : Shape := ⟨2, ![a, b]⟩
/-- A rank-1 shape. -/
abbrev Row (a : ℕ) : Shape := ⟨1, ![a]⟩

variable {a n : ℕ}

/-- The maximum of column q, folded from −∞. -/
def colMax (S : (Mat a n).Idx → EReal) (q : Fin n) : EReal :=
  (Finset.univ : Finset (Fin a)).fold max (Ideal.ofBits .f32 0xFF800000#32) fun k : Fin a => S (ix2 k q)

/-- Each entry shifted by its column's maximum, exponentiated. -/
def expShift (S : (Mat a n).Idx → EReal) : (Mat a n).Idx → EReal :=
  fun i => Ideal.exp (S i - colMax S (i 1))

/-- The sum of column q. -/
def colSum (E : (Mat a n).Idx → EReal) (q : Fin n) : EReal := ∑ k : Fin a, E (ix2 k q)

/-- Each entry divided by its column's sum. -/
def normalise (E : (Mat a n).Idx → EReal) : (Mat a n).Idx → EReal :=
  fun i => Ideal.div (E i) (colSum E (i 1))

/-- The sum of row k. -/
def rowSum (A : (Mat a n).Idx → EReal) (k : Fin a) : EReal := ∑ q : Fin n, A (ix2 k q)

/-- The left half of the value weights' columns: the part that acts on a query. -/
def wvQ (Wv : (Mat 64 128).Idx → EReal) : (Mat 64 64).Idx → EReal :=
  fun j => Wv (ix2 (j 0) ⟨(j 1).val, by have h : (j 1).val < 64 := (j 1).isLt; omega⟩)

/-- The right half of the value weights' columns: the part that acts on a key. -/
def wvK (Wv : (Mat 64 128).Idx → EReal) : (Mat 64 64).Idx → EReal :=
  fun j => Wv (ix2 (j 0) ⟨64 + (j 1).val, by have h : (j 1).val < 64 := (j 1).isLt; omega⟩)

/-- The weighted values: the weights against the projected queries, plus each key row's total weight times that
    key's own projection and the bias. -/
def combine (A : (Mat 2048 2048).Idx → EReal) (QP KP : (Mat 2048 64).Idx → EReal) (bv : (Row 64).Idx → EReal) :
    (Mat 2048 64).Idx → EReal :=
  fun i => LibDense.prod A QP i + rowSum A (i 0) * (KP i + bv (ix1 (i 1)))

/-- The attention weights of a slice from its projected keys and queries. -/
def weightsOf (K Q : (Mat 2048 64).Idx → EReal) : (Mat 2048 2048).Idx → EReal :=
  normalise (expShift (LibDotNT.rowDot K Q))

/-- One slice's output. -/
def slice (Lb Hb : (Mat 2048 64).Idx → EReal) (Wk : (Mat 64 64).Idx → EReal) (bk : (Row 64).Idx → EReal)
    (Wq : (Mat 64 64).Idx → EReal) (bq : (Row 64).Idx → EReal) (Wv : (Mat 64 128).Idx → EReal)
    (bv : (Row 64).Idx → EReal) : (Mat 2048 64).Idx → EReal :=
  combine (weightsOf (LibDotNT.layer Lb Wk bk) (LibDotNT.layer Hb Wq bq))
    (LibDotNT.rowDot (LibDotNT.layer Hb Wq bq) (wvQ Wv)) (LibDotNT.rowDot (LibDotNT.layer Lb Wk bk) (wvK Wv)) bv

/-- Slice (b, h) of a [2, 8, 2048, 64] array. -/
def sliceOf (X : (⟨4, ![2, 8, 2048, 64]⟩ : Shape).Idx → EReal) (b : Fin 2) (h : Fin 8) : (Mat 2048 64).Idx → EReal :=
  fun j => X (ix4 b h (j 0) (j 1))

/-- The whole result: at (b, h, k, t), slice (b, h)'s output at (k, t). -/
def result (L H : (⟨4, ![2, 8, 2048, 64]⟩ : Shape).Idx → EReal) (Wk : (Mat 64 64).Idx → EReal) (bk : (Row 64).Idx → EReal)
    (Wq : (Mat 64 64).Idx → EReal) (bq : (Row 64).Idx → EReal) (Wv : (Mat 64 128).Idx → EReal)
    (bv : (Row 64).Idx → EReal) : (⟨4, ![2, 8, 2048, 64]⟩ : Shape).Idx → EReal :=
  fun i => slice (sliceOf L (i 0) (i 1)) (sliceOf H (i 0) (i 1)) Wk bk Wq bq Wv bv (ix2 (i 2) (i 3))

end Cert.Attn

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibColumn.lean ====
/-
  A block read down its columns, on the extended reals.

  A vector unit's maximum over the FIRST axis of an `[a, n]` block is, at column `y`, the fold of `max` from the
  accumulator's value over the column's entries `src (k, y)` (the counterpart, for columns, of the maximum along a row);
  and a `[1, 1]` array spread over an `[a, b]` block reads its one entry at every position. Nothing here needs an entry to be
  finite.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibColumn

open Idealize.ShloMosaic Idealize.ShloMosaic.ValueIdx

/-- Rank 2, first axis reduced: the reduced index `y` with row `k` put back is `(k, y)`. -/
theorem lift_col2 {a n : ℕ} (h : (⟨2, ![a, n]⟩ : Shape).Reduces [0] (⟨1, ![n]⟩ : Shape)) (y : Fin n)
    (k : Fin ((⟨2, ![a, n]⟩ : Shape).size 0)) : h.lift (ix1 y) k = ix2 (⟨k.val, k.isLt⟩ : Fin a) y := by
  funext c; apply Fin.ext
  fin_cases c <;> rfl

/-- The vector unit's maximum over the first axis of an `[a, n]` block, at column `y`: the fold of `max` from the
    accumulator's value over the column. -/
theorem multiReduction_max_col {a n : ℕ} (src : FVec Ideal ⟨2, ![a, n]⟩ .f32) (acc : BitVec 32)
    (h : (⟨2, ![a, n]⟩ : Shape).Reduces [0] (⟨1, ![n]⟩ : Shape)) (hφ : FKind.Formats .f32)
    (hacc : acc = FKind.maximumf.neutral .f32 hφ) (y : Fin n) :
    multiReduction .maximumf [0] ⟨1, ![n]⟩ src acc h hφ hacc (ix1 y)
      = (Finset.univ : Finset (Fin a)).fold max (Ideal.ofBits .f32 acc) fun k : Fin a => src (ix2 k y) := by
  rw [Ideal.multiReduction_maximumf_single]
  have hf : (src ∘ h.lift (ix1 y)) = fun k : Fin a => src (ix2 k y) :=
    funext fun k => congrArg src (lift_col2 h y k)
  exact congrArg (fun f => Finset.fold max (Ideal.ofBits .f32 acc) f (Finset.univ : Finset (Fin a))) hf

/-- A `[1, 1]` array spread over `[p, q]` reads its one entry everywhere. -/
theorem broadcastTo_11_ab_apply {α : Type} {p q : ℕ} (v : (⟨2, ![1, 1]⟩ : Shape).Idx → α)
    (h : (⟨2, ![1, 1]⟩ : Shape).Broadcasts ⟨2, ![p, q]⟩) (k : Fin p) (c : Fin q) :
    broadcastTo ⟨2, ![p, q]⟩ v h (ix2 k c) = v (ix2 (0 : Fin 1) (0 : Fin 1)) := by
  refine broadcastTo_apply v h (ix2 k c) (ix2 (0 : Fin 1) (0 : Fin 1)) fun ax => ?_
  match ax with
  | ⟨0, _⟩ => rfl
  | ⟨1, _⟩ => rfl

end Cert.LibColumn

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.AttnKernel.lean ====
import proofs.«105342_j28664611733586_1_alg».proof.Proof.AttnBlock
import proofs.«105342_j28664611733586_1_alg».proof.Proof.AttnSpec
import proofs.«105342_j28664611733586_1_alg».proof.Proof.LibAxisSum
import proofs.«105342_j28664611733586_1_alg».proof.Proof.LibColumn
import proofs.«105342_j28664611733586_1_alg».proof.Proof.LibSoftmaxRow

set_option maxRecDepth 16384

noncomputable section

/-! # The body's payloads are the slice's operations

Each payload term of the body, read on the extended reals, is one step of the slice function: the two projections are
layers x · wᵀ + b, the scores are the row-against-row products of the projected keys and queries, the two in-place
rewrites of the score buffer are the column-wise shifted exponential and the column-wise normalisation, and the final
payload is the weighted combination. A block [1, 1, 2048, 64] and the matrix [2048, 64] it is cast to hold the same
entries at (0, 0, n, r) and (n, r). -/

namespace Cert.KernelIdeal.BlockValue

open Idealize.ShloMosaic Idealize.ShloMosaic.ValueIdx
open Cert.KernelIdeal Cert.KernelIdeal.Gen Cert.KernelIdeal.Block Cert.Attn

/-- The block [1, 1, 2048, 64] seen as the matrix [2048, 64]. -/
def sq (x : Vec Ideal S1x1x2048x64 .f32) : (Mat 2048 64).Idx → EReal :=
  shapeCast S2048x64 x shapeCasts_S1x1x2048x64_S2048x64

/-- Entry (n, r) of the matrix is entry (0, 0, n, r) of the block. -/
theorem sq_apply (x : Vec Ideal S1x1x2048x64 .f32) (n : Fin 2048) (r : Fin 64) :
    sq x (ix2 n r) = x (ix4 (0 : Fin 1) (0 : Fin 1) n r) := by
  unfold sq
  refine shapeCast_apply x _ (ix2 n r) (ix4 (0 : Fin 1) (0 : Fin 1) n r) ?_
  rw [Shape.rowMajor_val_four, Shape.rowMajor_val_two]
  show ((0 * 1 + 0) * 2048 + n.val) * 64 + r.val = n.val * 64 + r.val
  omega

/-- Entry (0, 0, n, r) of a matrix cast back to a block is the matrix's entry (n, r). -/
theorem unsq_apply (v : FVec Ideal S2048x64 .f32) (y : S1x1x2048x64.Idx) :
    shapeCast S1x1x2048x64 v shapeCasts_S2048x64_S1x1x2048x64 y = v (ix2 (y 2) (y 3)) := by
  refine shapeCast_apply v _ y (ix2 (y 2) (y 3)) ?_
  rw [Shape.rowMajor_val_four, Shape.rowMajor_val_two]
  have h0 : (y 0).val = 0 := by have h : (y 0).val < 1 := (y 0).isLt; omega
  have h1 : (y 1).val = 0 := by have h : (y 1).val < 1 := (y 1).isLt; omega
  show (y 2).val * 64 + (y 3).val = (((y 0).val * 1 + (y 1).val) * 2048 + (y 2).val) * 64 + (y 3).val
  rw [h0, h1]; omega

/-- The projected keys: a layer of the key-side block. -/
theorem keys_eq (x0 : Vec Ideal S1x1x2048x64 .f32) (x2 : Vec Ideal S64x64 .f32) (x3 : Vec Ideal S64 .f32) :
    k0_pay4 x0 x2 x3 = LibDotNT.layer (sq x0) x2 x3 := by
  funext i
  unfold k0_pay4 LibDotNT.layer
  exact congrArg₂ (· + ·) (LibDotNT.matmul_tr (sq x0) x2 i) (LibDense.bias_row x3 _ _ i)

/-- The projected queries: a layer of the query-side block. -/
theorem queries_eq (x1 : Vec Ideal S1x1x2048x64 .f32) (x4 : Vec Ideal S64x64 .f32) (x5 : Vec Ideal S64 .f32) :
    k0_pay5 x1 x4 x5 = LibDotNT.layer (sq x1) x4 x5 := by
  funext i
  unfold k0_pay5 LibDotNT.layer
  exact congrArg₂ (· + ·) (LibDotNT.matmul_tr (sq x1) x4 i) (LibDense.bias_row x5 _ _ i)

/-- The scores: projected keys against projected queries. -/
theorem scores_eq (x0 x1 : Vec Ideal S1x1x2048x64 .f32) (x2 : Vec Ideal S64x64 .f32) (x3 : Vec Ideal S64 .f32)
    (x4 : Vec Ideal S64x64 .f32) (x5 : Vec Ideal S64 .f32) :
    k0_pay6 x0 x1 x2 x3 x4 x5 = LibDotNT.rowDot (k0_pay4 x0 x2 x3) (k0_pay5 x1 x4 x5) := by
  funext i
  unfold k0_pay6
  rw [shapeCast_self]
  exact LibDotNT.matmul_tr (k0_pay4 x0 x2 x3) (k0_pay5 x1 x4 x5) i

/-- The first rewrite of the score buffer: each entry shifted by its column's maximum, exponentiated. -/
theorem expShift_eq (S : Vec Ideal S2048x2048 .f32) : k0_pay7 S S = expShift (a := 2048) (n := 2048) S := by
  funext i
  obtain ⟨k, q, rfl⟩ : ∃ (k : Fin 2048) (q : Fin 2048), i = ix2 k q := ⟨i 0, i 1, eq_ix2 i⟩
  unfold k0_pay7 expShift
  refine congrArg Ideal.exp (congrArg (S (ix2 k q) - ·) ?_)
  exact (LibDense.bias_row _ _ _ (ix2 k q)).trans (LibColumn.multiReduction_max_col S _ _ _ _ q)

/-- Storing and reloading through an identity cast changes nothing. -/
theorem pay1_eq (E : FVec Ideal S2048x2048 .f32) : k0_pay1 E = E := by
  unfold k0_pay1
  exact shapeCast_self E _

/-- The second rewrite: each entry divided by its column's sum. -/
theorem normalise_eq (E : Vec Ideal S2048x2048 .f32) : k0_pay2 E E = normalise (a := 2048) (n := 2048) E := by
  funext i
  obtain ⟨k, q, rfl⟩ : ∃ (k : Fin 2048) (q : Fin 2048), i = ix2 k q := ⟨i 0, i 1, eq_ix2 i⟩
  unfold k0_pay2 normalise colSum
  rw [shapeCast_self]
  refine congrArg (Ideal.div (E (ix2 k q)) ·) ?_
  exact (LibDense.bias_row _ _ _ (ix2 k q)).trans (LibAxisSum.sum_first E _ _ _ _ q)

/-- The attention weights of the block. -/
theorem weights_eq (x0 x1 : Vec Ideal S1x1x2048x64 .f32) (x2 : Vec Ideal S64x64 .f32) (x3 : Vec Ideal S64 .f32)
    (x4 : Vec Ideal S64x64 .f32) (x5 : Vec Ideal S64 .f32) :
    weights x0 x1 x2 x3 x4 x5 = weightsOf (LibDotNT.layer (sq x0) x2 x3) (LibDotNT.layer (sq x1) x4 x5) := by
  unfold weights weightsOf
  rw [pay1_eq, normalise_eq, expShift_eq, scores_eq, keys_eq, queries_eq]

/-- The left half of the loaded value weights. -/
theorem sliceQ_eq (x6 : Vec Ideal S64x128 .f32) :
    extractStridedSlice S64x64 ![0, 0] x6 slices_S64x128_o0_0_S64x64 = wvQ x6 := by
  funext j
  unfold wvQ
  refine extractStridedSlice_apply ![0, 0] x6 _ j _ fun a => ?_
  match a with
  | ⟨0, _⟩ => show (j 0).val = 0 + (j 0).val; omega
  | ⟨1, _⟩ => show (j 1).val = 0 + (j 1).val; omega

/-- The right half of the loaded value weights. -/
theorem sliceK_eq (x6 : Vec Ideal S64x128 .f32) :
    extractStridedSlice S64x64 ![0, 64] x6 slices_S64x128_o0_64_S64x64 = wvK x6 := by
  funext j
  unfold wvK
  refine extractStridedSlice_apply ![0, 64] x6 _ j _ fun a => ?_
  match a with
  | ⟨0, _⟩ => show (j 0).val = 0 + (j 0).val; omega
  | ⟨1, _⟩ => rfl

/-- The final payload: the weighted combination, cast back to a block. -/
theorem combine_eq (x6 : Vec Ideal S64x128 .f32) (x7 : Vec Ideal S64 .f32) (K Q : FVec Ideal S2048x64 .f32)
    (A : Vec Ideal S2048x2048 .f32) :
    k0_pay3 x6 x7 K Q A A
      = shapeCast S1x1x2048x64 (combine A (LibDotNT.rowDot Q (wvQ x6)) (LibDotNT.rowDot K (wvK x6)) x7)
          shapeCasts_S2048x64_S1x1x2048x64 := by
  unfold k0_pay3
  refine congrArg (fun v => shapeCast S1x1x2048x64 v shapeCasts_S2048x64_S1x1x2048x64) (funext fun i => ?_)
  obtain ⟨k, t, rfl⟩ : ∃ (k : Fin 2048) (t : Fin 64), i = ix2 k t := ⟨i 0, i 1, eq_ix2 i⟩
  rw [sliceQ_eq, sliceK_eq]
  unfold combine rowSum
  have hq : (matmul dot_S2048x64_S64x64_S2048x64_1_1_0_0_n_n none Q (wvQ x6 : FVec Ideal S64x64 .f32) (constant S2048x64 .f32 0x00000000#32) : FVec Ideal S2048x64 .f32)
      = LibDotNT.rowDot Q (wvQ x6) := funext fun j => LibDotNT.matmul_tr (φ₁ := .f32) (φ₂ := .f32) Q (wvQ x6) j
  have hk : (matmul dot_S2048x64_S64x64_S2048x64_1_1_0_0_n_n none K (wvK x6 : FVec Ideal S64x64 .f32) (constant S2048x64 .f32 0x00000000#32) : FVec Ideal S2048x64 .f32)
      = LibDotNT.rowDot K (wvK x6) := funext fun j => LibDotNT.matmul_tr (φ₁ := .f32) (φ₂ := .f32) K (wvK x6) j
  rw [hq, hk]
  refine congrArg₂ (· + ·) (LibDense.matmul_plain A (LibDotNT.rowDot Q (wvQ x6)) (ix2 k t)) ?_
  refine congrArg₂ (· * ·) ?_ (congrArg (LibDotNT.rowDot K (wvK x6) (ix2 k t) + ·) (LibDense.bias_row x7 _ _ (ix2 k t)))
  exact (LibSoftmaxRow.broadcastTo_a1_ab_apply _ _ k t).trans
    ((LibSoftmaxRow.shapeCast_a_a1_apply _ _ k 0).trans (LibAxisSum.sum_last A _ _ _ _ k))

/-- The block the body leaves is the slice function of its input blocks, cast back to a block. -/
theorem blockOut_eq (x0 x1 : Vec Ideal S1x1x2048x64 .f32) (x2 : Vec Ideal S64x64 .f32) (x3 : Vec Ideal S64 .f32)
    (x4 : Vec Ideal S64x64 .f32) (x5 : Vec Ideal S64 .f32) (x6 : Vec Ideal S64x128 .f32) (x7 : Vec Ideal S64 .f32) :
    blockOut x0 x1 x2 x3 x4 x5 x6 x7
      = shapeCast S1x1x2048x64 (slice (sq x0) (sq x1) x2 x3 x4 x5 x6 x7) shapeCasts_S2048x64_S1x1x2048x64 := by
  unfold blockOut slice
  rw [combine_eq, weights_eq, keys_eq, queries_eq]

end Cert.KernelIdeal.BlockValue

end
-- ==== Proof.AttnArray.lean ====
import proofs.«105342_j28664611733586_1_alg».proof.Proof.AttnKernel
import proofs.«105342_j28664611733586_1_alg».proof.Proof.Gen.KernelIdeal.Value
import Idealize.ShloMosaic.Lib.Pipeline.Value

set_option maxRecDepth 16384

noncomputable section

/-! # From the sixteen blocks to the result array

The grid is (batch, head) = 2 × 8. At point t the key-side and query-side windows hold slice (b, h) of their arrays,
the six weight and bias windows hold their whole arrays, and the output window writes back slice (b, h) of the result.
So what point t writes back is block t of the whole-array result function, and the sixteen blocks cover the array. -/

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (m : (ℓ : Loc nD τ sig) → Buf (Elt Ideal) ℓ) (ρ : Dev nD → PrngReg)

/-- The two sliced input windows move with the output window on the batch and head axes and stay at block 0 on the
    row and feature axes; the output's block indices stay in range. Decided over the sixteen points. -/
theorem idx_facts : ∀ t : Fin cfg0.N,
    win0_0.index t (0 : Fin 4) = win0_8.index t (0 : Fin 4) ∧ win0_0.index t (1 : Fin 4) = win0_8.index t (1 : Fin 4)
    ∧ win0_0.index t (2 : Fin 4) = 0 ∧ win0_0.index t (3 : Fin 4) = 0
    ∧ win0_1.index t (0 : Fin 4) = win0_8.index t (0 : Fin 4) ∧ win0_1.index t (1 : Fin 4) = win0_8.index t (1 : Fin 4)
    ∧ win0_1.index t (2 : Fin 4) = 0 ∧ win0_1.index t (3 : Fin 4) = 0
    ∧ win0_8.index t (2 : Fin 4) = 0 ∧ win0_8.index t (3 : Fin 4) = 0
    ∧ win0_8.index t (0 : Fin 4) < 2 ∧ win0_8.index t (1 : Fin 4) < 8 :=
  (by decide +kernel : ∀ t : Fin grid0.N, _)

/-- The weight and bias windows never move. -/
theorem idx_whole : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0 :=
  (by decide +kernel : ∀ t : Fin grid0.N, _)

/-- Every (batch, head) pair is some point's output block. -/
theorem idx_onto : ∀ (q0 : Fin 2) (q1 : Fin 8), ∃ t : Fin cfg0.N,
    win0_8.index t (0 : Fin 4) = q0.val ∧ win0_8.index t (1 : Fin 4) = q1.val :=
  (by decide +kernel : ∀ (q0 : Fin 2) (q1 : Fin 8), ∃ t : Fin grid0.N,
    win0_8.index t (0 : Fin 4) = q0.val ∧ win0_8.index t (1 : Fin 4) = q1.val)

/-- The batch coordinate of point t. -/
def bOf (t : Fin cfg0.N) : Fin 2 := ⟨win0_8.index t (0 : Fin 4), (idx_facts t).2.2.2.2.2.2.2.2.2.2.1⟩
/-- The head coordinate of point t. -/
def hOf (t : Fin cfg0.N) : Fin 8 := ⟨win0_8.index t (1 : Fin 4), (idx_facts t).2.2.2.2.2.2.2.2.2.2.2⟩

/-- The key-side window's block at point t, as a matrix, is slice (b, h) of its array. -/
theorem keyBlock_eq (c : Dev nD) (t : Fin cfg0.N) :
    BlockValue.sq (iblk m c 0 t) = sliceOf (V m c main_arg0) (bOf t) (hOf t) := by
  obtain ⟨e0, e1, e2, e3, -⟩ := idx_facts t
  funext j
  obtain ⟨n, r, rfl⟩ : ∃ (n : Fin 2048) (r : Fin 64), j = ix2 n r := ⟨j 0, j 1, eq_ix2 j⟩
  refine (BlockValue.sq_apply (iblk m c 0 t) n r).trans ?_
  show V m c main_arg0 (((cfg0.win 0).blk t).view.emb (ix4 (0 : Fin 1) (0 : Fin 1) n r)) = V m c main_arg0 (ix4 (bOf t) (hOf t) n r)
  refine congrArg (V m c main_arg0) (funext fun a => Fin.ext ?_)
  match a with
  | ⟨0, _⟩ => show win0_0.index t (0 : Fin 4) * 1 + 1 * 0 = win0_8.index t (0 : Fin 4); omega
  | ⟨1, _⟩ => show win0_0.index t (1 : Fin 4) * 1 + 1 * 0 = win0_8.index t (1 : Fin 4); omega
  | ⟨2, _⟩ => show win0_0.index t (2 : Fin 4) * 2048 + 1 * n.val = n.val; omega
  | ⟨3, _⟩ => show win0_0.index t (3 : Fin 4) * 64 + 1 * r.val = r.val; omega

/-- The query-side window's block at point t, as a matrix, is slice (b, h) of its array. -/
theorem queryBlock_eq (c : Dev nD) (t : Fin cfg0.N) :
    BlockValue.sq (iblk m c 1 t) = sliceOf (V m c main_arg1) (bOf t) (hOf t) := by
  obtain ⟨-, -, -, -, e0, e1, e2, e3, -⟩ := idx_facts t
  funext j
  obtain ⟨n, r, rfl⟩ : ∃ (n : Fin 2048) (r : Fin 64), j = ix2 n r := ⟨j 0, j 1, eq_ix2 j⟩
  refine (BlockValue.sq_apply (iblk m c 1 t) n r).trans ?_
  show V m c main_arg1 (((cfg0.win 1).blk t).view.emb (ix4 (0 : Fin 1) (0 : Fin 1) n r)) = V m c main_arg1 (ix4 (bOf t) (hOf t) n r)
  refine congrArg (V m c main_arg1) (funext fun a => Fin.ext ?_)
  match a with
  | ⟨0, _⟩ => show win0_1.index t (0 : Fin 4) * 1 + 1 * 0 = win0_8.index t (0 : Fin 4); omega
  | ⟨1, _⟩ => show win0_1.index t (1 : Fin 4) * 1 + 1 * 0 = win0_8.index t (1 : Fin 4); omega
  | ⟨2, _⟩ => show win0_1.index t (2 : Fin 4) * 2048 + 1 * n.val = n.val; omega
  | ⟨3, _⟩ => show win0_1.index t (3 : Fin 4) * 64 + 1 * r.val = r.val; omega

/-- Window 2 holds its whole array at every point. -/
theorem blk2_eq (c : Dev nD) (t : Fin cfg0.N) : (iblk m c 2 t : Vec Ideal S64x64 .f32) = V m c main_arg2 := by
  obtain ⟨e2a, e2b, e3, e4a, e4b, e5, e6a, e6b, e7⟩ := idx_whole t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 64 + 1 * (j 0).val = (j 0).val; omega
  | ⟨1, _⟩ => show win0_2.index t (1 : Fin 2) * 64 + 1 * (j 1).val = (j 1).val; omega

/-- Window 3 holds its whole array at every point. -/
theorem blk3_eq (c : Dev nD) (t : Fin cfg0.N) : (iblk m c 3 t : Vec Ideal S64 .f32) = V m c main_arg3 := by
  obtain ⟨e2a, e2b, e3, e4a, e4b, e5, e6a, e6b, e7⟩ := idx_whole t
  funext j
  show V m c main_arg3 (((cfg0.win 3).blk t).view.emb j) = V m c main_arg3 j
  refine congrArg (V m c main_arg3) (funext fun a => Fin.ext ?_)
  match a with
  | ⟨0, _⟩ => show win0_3.index t (0 : Fin 1) * 64 + 1 * (j 0).val = (j 0).val; omega

/-- Window 4 holds its whole array at every point. -/
theorem blk4_eq (c : Dev nD) (t : Fin cfg0.N) : (iblk m c 4 t : Vec Ideal S64x64 .f32) = V m c main_arg4 := by
  obtain ⟨e2a, e2b, e3, e4a, e4b, e5, e6a, e6b, e7⟩ := idx_whole t
  funext j
  show V m c main_arg4 (((cfg0.win 4).blk t).view.emb j) = V m c main_arg4 j
  refine congrArg (V m c main_arg4) (funext fun a => Fin.ext ?_)
  match a with
  | ⟨0, _⟩ => show win0_4.index t (0 : Fin 2) * 64 + 1 * (j 0).val = (j 0).val; omega
  | ⟨1, _⟩ => show win0_4.index t (1 : Fin 2) * 64 + 1 * (j 1).val = (j 1).val; omega

/-- Window 5 holds its whole array at every point. -/
theorem blk5_eq (c : Dev nD) (t : Fin cfg0.N) : (iblk m c 5 t : Vec Ideal S64 .f32) = V m c main_arg5 := by
  obtain ⟨e2a, e2b, e3, e4a, e4b, e5, e6a, e6b, e7⟩ := idx_whole t
  funext j
  show V m c main_arg5 (((cfg0.win 5).blk t).view.emb j) = V m c main_arg5 j
  refine congrArg (V m c main_arg5) (funext fun a => Fin.ext ?_)
  match a with
  | ⟨0, _⟩ => show win0_5.index t (0 : Fin 1) * 64 + 1 * (j 0).val = (j 0).val; omega

/-- Window 6 holds its whole array at every point. -/
theorem blk6_eq (c : Dev nD) (t : Fin cfg0.N) : (iblk m c 6 t : Vec Ideal S64x128 .f32) = V m c main_arg6 := by
  obtain ⟨e2a, e2b, e3, e4a, e4b, e5, e6a, e6b, e7⟩ := idx_whole t
  funext j
  show V m c main_arg6 (((cfg0.win 6).blk t).view.emb j) = V m c main_arg6 j
  refine congrArg (V m c main_arg6) (funext fun a => Fin.ext ?_)
  match a with
  | ⟨0, _⟩ => show win0_6.index t (0 : Fin 2) * 64 + 1 * (j 0).val = (j 0).val; omega
  | ⟨1, _⟩ => show win0_6.index t (1 : Fin 2) * 128 + 1 * (j 1).val = (j 1).val; omega

/-- Window 7 holds its whole array at every point. -/
theorem blk7_eq (c : Dev nD) (t : Fin cfg0.N) : (iblk m c 7 t : Vec Ideal S64 .f32) = V m c main_arg7 := by
  obtain ⟨e2a, e2b, e3, e4a, e4b, e5, e6a, e6b, e7⟩ := idx_whole t
  funext j
  show V m c main_arg7 (((cfg0.win 7).blk t).view.emb j) = V m c main_arg7 j
  refine congrArg (V m c main_arg7) (funext fun a => Fin.ext ?_)
  match a with
  | ⟨0, _⟩ => show win0_7.index t (0 : Fin 1) * 64 + 1 * (j 0).val = (j 0).val; omega

/-- The slice function read at equal coordinates. -/
theorem slice_coords (L H : (⟨4, ![2, 8, 2048, 64]⟩ : Shape).Idx → EReal) (Wk : (Mat 64 64).Idx → EReal) (bk : (Row 64).Idx → EReal)
    (Wq : (Mat 64 64).Idx → EReal) (bq : (Row 64).Idx → EReal) (Wv : (Mat 64 128).Idx → EReal) (bv : (Row 64).Idx → EReal)
    (b b' : Fin 2) (h h' : Fin 8) (k k' : Fin 2048) (u u' : Fin 64) (hb : b = b') (hh : h = h') (hk : k = k') (hu : u = u') :
    slice (sliceOf L b h) (sliceOf H b h) Wk bk Wq bq Wv bv (ix2 k u)
      = slice (sliceOf L b' h') (sliceOf H b' h') Wk bk Wq bq Wv bv (ix2 k' u') := by
  subst hb; subst hh; subst hk; subst hu; rfl

/-- What point t writes back is block t of the result function of the arrays as the region finds them. -/
theorem flushed_eq (c : Dev nD) (t : Fin cfg0.N) :
    (dats m 0 c).flushed 8 t = ((cfg0.win 8).blk t).view.read (Elt Ideal) (result (V m c main_arg0) (V m c main_arg1) (V m c main_arg2) (V m c main_arg3) (V m c main_arg4) (V m c main_arg5) (V m c main_arg6) (V m c main_arg7)) := by
  rw [Value.flushed8_A]
  have e1 := Block.out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t)
  have e2 := BlockValue.blockOut_eq (iblk m c 0 t) (iblk m c 1 t) (iblk m c 2 t) (iblk m c 3 t) (iblk m c 4 t) (iblk m c 5 t) (iblk m c 6 t) (iblk m c 7 t)
  rw [e1, e2, keyBlock_eq, queryBlock_eq, blk2_eq, blk3_eq, blk4_eq, blk5_eq, blk6_eq, blk7_eq]
  obtain ⟨-, -, -, -, -, -, -, -, e8, e9, -⟩ := idx_facts t
  funext y
  refine (BlockValue.unsq_apply _ y).trans ?_
  have hy0 : (y 0).val < 1 := (y 0).isLt
  have hy1 : (y 1).val < 1 := (y 1).isLt
  exact slice_coords _ _ _ _ _ _ _ _ _ _ _ _ _ _ _ _
    (Fin.ext (by show win0_8.index t (0 : Fin 4) = win0_8.index t (0 : Fin 4) * 1 + 1 * (y 0).val; omega))
    (Fin.ext (by show win0_8.index t (1 : Fin 4) = win0_8.index t (1 : Fin 4) * 1 + 1 * (y 1).val; omega))
    (Fin.ext (by show (y 2).val = win0_8.index t (2 : Fin 4) * 2048 + 1 * (y 2).val; omega))
    (Fin.ext (by show (y 3).val = win0_8.index t (3 : Fin 4) * 64 + 1 * (y 3).val; omega))

/-- An index of the result array is in point t's block iff each coordinate is in the block's range on its axis. -/
theorem mem_blk (t : Fin cfg0.N) (i : S2x8x2048x64.Idx) :
    i ∈ ((cfg0.win 8).blk t).view.set ↔ ∀ a : Fin 4, win0_8.index t a * S1x1x2048x64.size a ≤ (i a).val
      ∧ (i a).val < win0_8.index t a * S1x1x2048x64.size a + S1x1x2048x64.size a := by
  show i ∈ ((View.whole main_v0).slice (win0_8.rect t)).set ↔ _
  rw [View.set_slice_whole, Rect.mem_set_unit]
  exact Iff.rfl

/-- The result array after the run is the result function of the argument arrays. -/
theorem final (c : Dev nD) : (dats m 0 c).arrAt 8 cfg0.N = result (V m c main_arg0) (V m c main_arg1) (V m c main_arg2) (V m c main_arg3) (V m c main_arg4) (V m c main_arg5) (V m c main_arg6) (V m c main_arg7) :=
  (dats m 0 c).arrAt_eq_of_cover 8 (result (V m c main_arg0) (V m c main_arg1) (V m c main_arg2) (V m c main_arg3) (V m c main_arg4) (V m c main_arg5) (V m c main_arg6) (V m c main_arg7)) (fun t _ => flushed_eq m c t) fun i => by
    have hi0 : (i 0).val < 2 := (i 0).isLt
    have hi1 : (i 1).val < 8 := (i 1).isLt
    have hi2 : (i 2).val < 2048 := (i 2).isLt
    have hi3 : (i 3).val < 64 := (i 3).isLt
    obtain ⟨t, q0, q1⟩ := idx_onto ⟨(i 0).val, hi0⟩ ⟨(i 1).val, hi1⟩
    obtain ⟨-, -, -, -, -, -, -, -, e8, e9, -⟩ := idx_facts t
    refine ⟨t, flush0_8 t, ?_⟩
    rw [mem_blk]
    intro a
    match a with
    | ⟨0, _⟩ => show win0_8.index t (0 : Fin 4) * 1 ≤ (i 0).val ∧ (i 0).val < win0_8.index t (0 : Fin 4) * 1 + 1; dsimp only at q0; omega
    | ⟨1, _⟩ => show win0_8.index t (1 : Fin 4) * 1 ≤ (i 1).val ∧ (i 1).val < win0_8.index t (1 : Fin 4) * 1 + 1; dsimp only at q1; omega
    | ⟨2, _⟩ => show win0_8.index t (2 : Fin 4) * 2048 ≤ (i 2).val ∧ (i 2).val < win0_8.index t (2 : Fin 4) * 2048 + 2048; omega
    | ⟨3, _⟩ => show win0_8.index t (3 : Fin 4) * 64 ≤ (i 3).val ∧ (i 3).val < win0_8.index t (3 : Fin 4) * 64 + 64; omega

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.LibHostAxisMax.lean ====
import Idealize.ShloMosaic.PureOps.Ideal
import Idealize.ShloMosaic.PureOps.Ideal.Laws
import Idealize.ShloMosaic.PureOps.Reduce
import Idealize.ShloMosaic.Lib.ValueIdx

set_option maxRecDepth 16384

noncomputable section

/-! # The host's maximum over the third axis of a rank-4 array, read at an index

For x : [p, a, k, n] the host's reduce with a maximum body over axis 2 is, at (b, r, q), the fold of max from the
initial value over the entries x (b, r, j, q), j < k: the maximum DOWN a column of the (k, n) matrix that slice (b, r)
is. The maximum is commutative and associative, so no order matters, and nothing here needs an entry to be finite. -/

namespace Cert.LibHostAxisMax

open Idealize.ShloMosaic Idealize.ShloMosaic.ValueIdx

/-- Rank 4, axis 2 reduced: the reduced index (b, r, q) with the coordinate j put back is (b, r, j, q). -/
theorem lift_axis2 {p a k n : ℕ} (h : (⟨4, ![p, a, k, n]⟩ : Shape).Reduces [2] (⟨3, ![p, a, n]⟩ : Shape))
    (b : Fin p) (r : Fin a) (q : Fin n) (j : Fin ((⟨4, ![p, a, k, n]⟩ : Shape).size 2)) :
    h.lift (ix3 b r q) j = ix4 b r (⟨j.val, j.isLt⟩ : Fin k) q := by
  funext c; apply Fin.ext
  fin_cases c <;> rfl

/-- The host's reduce with a maximum body over axis 2 of a [p, a, k, n] array, at (b, r, q): the fold of max from the
    initial value down that column. -/
theorem hostReduce_max_axis2 {p a k n : ℕ} {u : Shape} (x : (⟨4, ![p, a, k, n]⟩ : Shape).Idx → Ideal .f32)
    (init : u.Idx → Ideal .f32) (h' : (⟨4, ![p, a, k, n]⟩ : Shape).ReducesTo [2] (⟨3, ![p, a, n]⟩ : Shape))
    (h : (⟨4, ![p, a, k, n]⟩ : Shape).Reduces [2] (⟨3, ![p, a, n]⟩ : Shape)) (hu : 0 < u.numel)
    (b : Fin p) (r : Fin a) (q : Fin n) :
    Host.reduce FloatOps.maximumf x init h' hu (ix3 b r q)
      = (Finset.univ : Finset (Fin k)).fold max (init (Shape.Idx.first hu)) fun j : Fin k => x (ix4 b r j q) := by
  rw [Host.reduce_eq_fold_single FloatOps.maximumf x init h' h hu]
  have hf : (x ∘ h.lift (ix3 b r q)) = fun j : Fin k => x (ix4 b r j q) :=
    funext fun j => congrArg x (lift_axis2 h b r q j)
  exact congrArg (fun f => Finset.fold max (init (Shape.Idx.first hu)) f (Finset.univ : Finset (Fin k))) hf

end Cert.LibHostAxisMax

end
-- ==== Proof.AttnRefA.lean ====
import proofs.«105342_j28664611733586_1_alg».proof.Proof.Gen.ReferenceIdeal.Read
import proofs.«105342_j28664611733586_1_alg».proof.Proof.AttnSpec
import proofs.«105342_j28664611733586_1_alg».proof.Proof.LibSoftmaxRow
import proofs.«105342_j28664611733586_1_alg».proof.Proof.LibHostAxisMax

set_option maxRecDepth 16384

noncomputable section

/-! # The reference, stage by stage: projections, scores, softmax over the key axis

The reference works on the whole [2, 8, …] arrays at once; every stage, read at batch b and head h, is the slice
function's stage of slice (b, h) of the two inputs: the einsums are sums over one contracted coordinate with the batch
and head coordinates carried along, the softmax reduces over the key axis (axis 2 of [2, 8, 2048, 2048]), and the
maximum with −∞ that the softmax lowering adds changes nothing. -/

namespace Cert.ReferenceIdeal.RefValue

open Idealize.ShloMosaic Idealize.ShloMosaic.ValueIdx
open Cert.ReferenceIdeal Cert.ReferenceIdeal.Gen Cert.ReferenceIdeal.Read Cert.Attn

macro "idx1" : tactic => `(tactic| (funext a; match a with | ⟨0, _⟩ => rfl))
macro "idx2" : tactic => `(tactic| (funext a; match a with | ⟨0, _⟩ => rfl | ⟨1, _⟩ => rfl))
macro "idx3" : tactic => `(tactic| (funext a; match a with | ⟨0, _⟩ => rfl | ⟨1, _⟩ => rfl | ⟨2, _⟩ => rfl))
macro "idx4" : tactic => `(tactic| (funext a; match a with | ⟨0, _⟩ => rfl | ⟨1, _⟩ => rfl | ⟨2, _⟩ => rfl | ⟨3, _⟩ => rfl))

variable (L H : (⟨S2x8x2048x64, .f32⟩ : BufTy).Contents (Elt Ideal)) (Wk : (⟨S64x64, .f32⟩ : BufTy).Contents (Elt Ideal))
  (bk : (⟨S64, .f32⟩ : BufTy).Contents (Elt Ideal)) (Wq : (⟨S64x64, .f32⟩ : BufTy).Contents (Elt Ideal))
  (bq : (⟨S64, .f32⟩ : BufTy).Contents (Elt Ideal)) (Wv : (⟨S64x128, .f32⟩ : BufTy).Contents (Elt Ideal))
  (bv : (⟨S64, .f32⟩ : BufTy).Contents (Elt Ideal))

/-- The projected keys of slice (b, h). -/
abbrev keysOf (b : Fin 2) (h : Fin 8) : (Mat 2048 64).Idx → EReal := LibDotNT.layer (sliceOf L b h) Wk bk
/-- The projected queries of slice (b, h). -/
abbrev queriesOf (b : Fin 2) (h : Fin 8) : (Mat 2048 64).Idx → EReal := LibDotNT.layer (sliceOf H b h) Wq bq

/-- The keys einsum plus its bias, at (b, h, n, s). -/
theorem keys_ref (b : Fin 2) (h : Fin 8) (n : Fin 2048) (s : Fin 64) :
    val_main_v3 (F := Ideal) L Wk bk (ix4 b h n s) = keysOf L Wk bk b h (ix2 n s) := by
  rw [val_main_v3_apply, val_main_v0_apply, val_main_v2_apply, val_main_v1_apply]
  refine congrArg₂ (· + ·) (Finset.sum_congr rfl fun k _ => congrArg₂ (· * ·) (congrArg L ?_) (congrArg Wk ?_)) (congrArg bk ?_)
  · show lidx_main_v0 (ix4 b h n s) k = ix4 b h n k; idx4
  · show ridx_main_v0 (ix4 b h n s) k = ix2 s k; idx2
  · show idx_main_v1 (idx_main_v2 (ix4 b h n s)) = ix1 s; idx1

/-- The queries einsum plus its bias, at (b, h, q, s). -/
theorem queries_ref (b : Fin 2) (h : Fin 8) (q : Fin 2048) (s : Fin 64) :
    val_main_v7 (F := Ideal) H Wq bq (ix4 b h q s) = queriesOf H Wq bq b h (ix2 q s) := by
  rw [val_main_v7_apply, val_main_v4_apply, val_main_v6_apply, val_main_v5_apply]
  refine congrArg₂ (· + ·) (Finset.sum_congr rfl fun k _ => congrArg₂ (· * ·) (congrArg H ?_) (congrArg Wq ?_)) (congrArg bq ?_)
  · show lidx_main_v4 (ix4 b h q s) k = ix4 b h q k; idx4
  · show ridx_main_v4 (ix4 b h q s) k = ix2 s k; idx2
  · show idx_main_v5 (idx_main_v6 (ix4 b h q s)) = ix1 s; idx1

/-- The scores of slice (b, h). -/
abbrev scoresOf (b : Fin 2) (h : Fin 8) : (Mat 2048 2048).Idx → EReal :=
  LibDotNT.rowDot (keysOf L Wk bk b h) (queriesOf H Wq bq b h)

/-- The logits einsum, at (b, h, k, q). -/
theorem scores_ref (b : Fin 2) (h : Fin 8) (k q : Fin 2048) :
    val_main_v8 (F := Ideal) L H Wk bk Wq bq (ix4 b h k q) = scoresOf L H Wk bk Wq bq b h (ix2 k q) := by
  rw [val_main_v8_apply]
  refine Finset.sum_congr rfl fun s _ => congrArg₂ (· * ·) ?_ ?_
  · rw [show lidx_main_v8 (ix4 b h k q) s = ix4 b h k s from by idx4]; exact keys_ref L Wk bk b h k s
  · rw [show ridx_main_v8 (ix4 b h k q) s = ix4 b h q s from by idx4]; exact queries_ref H Wq bq b h q s

/-- The column maxima: the reduce over the key axis from −∞, then the maximum with −∞ the lowering adds. -/
theorem colmax_ref (b : Fin 2) (h : Fin 8) (q : Fin 2048) :
    val_main_v11 (F := Ideal) L H Wk bk Wq bq (ix3 b h q) = colMax (scoresOf L H Wk bk Wq bq b h) q := by
  rw [val_main_v11_apply, val_main_v10_apply, val_main_cst_0_apply]
  refine (LibSoftmaxRow.max_negInf _).trans ?_
  unfold val_main_v9 colMax
  refine (LibHostAxisMax.hostReduce_max_axis2 _ _ reducesTo_S2x8x2048x2048_S2x8x2048_d2 (by decide) h_S_ b h q).trans ?_
  exact congrArg (fun f => Finset.fold max (Ideal.ofBits .f32 0xFF800000#32) f (Finset.univ : Finset (Fin 2048)))
    (funext fun k => scores_ref L H Wk bk Wq bq b h k q)

/-- The shifted exponentials, at (b, h, k, q). -/
theorem exp_ref (b : Fin 2) (h : Fin 8) (k q : Fin 2048) :
    val_main_v15 (F := Ideal) L H Wk bk Wq bq (ix4 b h k q) = expShift (scoresOf L H Wk bk Wq bq b h) (ix2 k q) := by
  rw [val_main_v15_apply, val_main_v14_apply, val_main_v13_apply, val_main_v12_apply]
  rw [show idx_main_v12 (idx_main_v13 (ix4 b h k q)) = ix3 b h q from by idx3, colmax_ref, scores_ref]
  rfl

/-- The column sums of the shifted exponentials: the reduce over the key axis from zero. -/
theorem colsum_ref (b : Fin 2) (h : Fin 8) (q : Fin 2048) :
    val_main_v16 (F := Ideal) L H Wk bk Wq bq (ix3 b h q) = colSum (expShift (scoresOf L H Wk bk Wq bq b h)) q := by
  rw [val_main_v16_apply, val_main_cst_1_apply]
  show Ideal.ofBits .f32 0x00000000#32 + _ = _
  rw [Ideal.ofBits_zero_f32, zero_add]
  unfold colSum
  refine Finset.sum_congr rfl fun k _ => ?_
  rw [show idx_main_v16 (ix3 b h q) k = ix4 b h k q from by idx4]
  exact exp_ref L H Wk bk Wq bq b h k q

/-- The attention weights, at (b, h, k, q). -/
theorem weights_ref (b : Fin 2) (h : Fin 8) (k q : Fin 2048) :
    val_main_v19 (F := Ideal) L H Wk bk Wq bq (ix4 b h k q)
      = weightsOf (keysOf L Wk bk b h) (queriesOf H Wq bq b h) (ix2 k q) := by
  rw [val_main_v19_apply, val_main_v18_apply, val_main_v17_apply]
  rw [show idx_main_v17 (idx_main_v18 (ix4 b h k q)) = ix3 b h q from by idx3, colsum_ref, exp_ref]
  rfl

end Cert.ReferenceIdeal.RefValue

end
-- ==== Proof.AttnRefB.lean ====
import proofs.«105342_j28664611733586_1_alg».proof.Proof.AttnRefA

set_option maxRecDepth 16384

noncomputable section

/-! # The reference, stage by stage: the value projections and the weighted combination

The two halves of the value weights act on the projected queries and the projected keys; the weights meet the query
projections in a matrix product over the query axis and the key projections through each key row's total weight. Read at
batch b and head h this is the slice function of slice (b, h), so the reference's result is the result function. -/

namespace Cert.ReferenceIdeal.RefValue

open Idealize.ShloMosaic Idealize.ShloMosaic.ValueIdx
open Cert.ReferenceIdeal Cert.ReferenceIdeal.Gen Cert.ReferenceIdeal.Read Cert.Attn

macro "idx1" : tactic => `(tactic| (funext a; match a with | ⟨0, _⟩ => rfl))
macro "idx2" : tactic => `(tactic| (funext a; match a with | ⟨0, _⟩ => rfl | ⟨1, _⟩ => rfl))
macro "idx3" : tactic => `(tactic| (funext a; match a with | ⟨0, _⟩ => rfl | ⟨1, _⟩ => rfl | ⟨2, _⟩ => rfl))
macro "idx4" : tactic => `(tactic| (funext a; match a with | ⟨0, _⟩ => rfl | ⟨1, _⟩ => rfl | ⟨2, _⟩ => rfl | ⟨3, _⟩ => rfl))

variable (L H : (⟨S2x8x2048x64, .f32⟩ : BufTy).Contents (Elt Ideal)) (Wk : (⟨S64x64, .f32⟩ : BufTy).Contents (Elt Ideal))
  (bk : (⟨S64, .f32⟩ : BufTy).Contents (Elt Ideal)) (Wq : (⟨S64x64, .f32⟩ : BufTy).Contents (Elt Ideal))
  (bq : (⟨S64, .f32⟩ : BufTy).Contents (Elt Ideal)) (Wv : (⟨S64x128, .f32⟩ : BufTy).Contents (Elt Ideal))
  (bv : (⟨S64, .f32⟩ : BufTy).Contents (Elt Ideal))

/-- The query projections through the left half of the value weights, at (b, h, q, t). -/
theorem qproj_ref (b : Fin 2) (h : Fin 8) (q : Fin 2048) (t : Fin 64) :
    val_main_v22 (F := Ideal) H Wq bq Wv (ix4 b h q t)
      = LibDotNT.rowDot (queriesOf H Wq bq b h) (wvQ Wv) (ix2 q t) := by
  rw [val_main_v22_apply]
  refine Finset.sum_congr rfl fun s _ => congrArg₂ (· * ·) ?_ ?_
  · rw [show lidx_main_v22 (ix4 b h q t) s = ix4 b h q s from by idx4]; exact queries_ref H Wq bq b h q s
  · rw [val_main_v20_apply]
    unfold wvQ
    exact congrArg Wv (by idx2)

/-- The key projections through the right half of the value weights, at (b, h, k, t). -/
theorem kproj_ref (b : Fin 2) (h : Fin 8) (k : Fin 2048) (t : Fin 64) :
    val_main_v23 (F := Ideal) L Wk bk Wv (ix4 b h k t)
      = LibDotNT.rowDot (keysOf L Wk bk b h) (wvK Wv) (ix2 k t) := by
  rw [val_main_v23_apply]
  refine Finset.sum_congr rfl fun s _ => congrArg₂ (· * ·) ?_ ?_
  · rw [show lidx_main_v23 (ix4 b h k t) s = ix4 b h k s from by idx4]; exact keys_ref L Wk bk b h k s
  · rw [val_main_v21_apply]
    unfold wvK
    exact congrArg Wv (by idx2)

/-- The weights against the query projections, at (b, h, k, t). -/
theorem outmat_ref (b : Fin 2) (h : Fin 8) (k : Fin 2048) (t : Fin 64) :
    val_main_v24 (F := Ideal) L H Wk bk Wq bq Wv (ix4 b h k t)
      = LibDense.prod (weightsOf (keysOf L Wk bk b h) (queriesOf H Wq bq b h))
          (LibDotNT.rowDot (queriesOf H Wq bq b h) (wvQ Wv)) (ix2 k t) := by
  rw [val_main_v24_apply]
  refine Finset.sum_congr rfl fun q _ => congrArg₂ (· * ·) ?_ ?_
  · rw [show lidx_main_v24 (ix4 b h k t) q = ix4 b h k q from by idx4]; exact weights_ref L H Wk bk Wq bq b h k q
  · rw [show ridx_main_v24 (ix4 b h k t) q = ix4 b h q t from by idx4]; exact qproj_ref H Wq bq Wv b h q t

/-- Each key row's total weight: the reduce over the query axis from zero. -/
theorem rowsum_ref (b : Fin 2) (h : Fin 8) (k : Fin 2048) :
    val_main_v25 (F := Ideal) L H Wk bk Wq bq (ix3 b h k)
      = rowSum (weightsOf (keysOf L Wk bk b h) (queriesOf H Wq bq b h)) k := by
  rw [val_main_v25_apply, val_main_cst_2_apply]
  show Ideal.ofBits .f32 0x00000000#32 + _ = _
  rw [Ideal.ofBits_zero_f32, zero_add]
  unfold rowSum
  refine Finset.sum_congr rfl fun q _ => ?_
  rw [show idx_main_v25 (ix3 b h k) q = ix4 b h k q from by idx4]
  exact weights_ref L H Wk bk Wq bq b h k q

/-- The reference's result at (b, h, k, t) is slice (b, h)'s output at (k, t). -/
theorem out_ref (b : Fin 2) (h : Fin 8) (k : Fin 2048) (t : Fin 64) :
    val_main_v32 (F := Ideal) L H Wk bk Wq bq Wv bv (ix4 b h k t)
      = slice (sliceOf L b h) (sliceOf H b h) Wk bk Wq bq Wv bv (ix2 k t) := by
  rw [val_main_v32_apply, val_main_v31_apply, val_main_v30_apply, val_main_v26_apply, val_main_v29_apply,
    val_main_v28_apply, val_main_v27_apply]
  rw [show idx_main_v26 (idx_main_v30 (ix4 b h k t)) = ix3 b h k from by idx3,
    show idx_main_v27 (idx_main_v28 (ix4 b h k t)) = ix1 t from by idx1, outmat_ref, rowsum_ref, kproj_ref]
  rfl

/-- The reference's result is the result function of its arguments. -/
theorem ref_eq : val_main_v32 (F := Ideal) L H Wk bk Wq bq Wv bv = result L H Wk bk Wq bq Wv bv := by
  funext i
  obtain ⟨b, h, k, t, rfl⟩ : ∃ (b : Fin 2) (h : Fin 8) (k : Fin 2048) (t : Fin 64), i = ix4 b h k t :=
    ⟨i 0, i 1, i 2, i 3, eq_ix4 i⟩
  exact out_ref L H Wk bk Wq bq Wv bv b h k t

end Cert.ReferenceIdeal.RefValue

end
-- ==== Proof.lean ====
/- The two programs compute one attention layer with the softmax taken over the KEY axis, per (batch, head) slice:
   K = L·Wkᵀ + bk, Q = H·Wqᵀ + bq, S = K·Qᵀ, A = softmax of S down its columns, and
   out = A·(Q·Wv[:, :64]ᵀ) + rowsum A · (K·Wv[:, 64:]ᵀ + bv).
   The kernel does this once per grid point (batch, head) with the 2048 × 2048 score matrix kept in one scratch buffer
   rewritten in place; the reference does it on the whole [2, 8, …] arrays with einsums. On the extended reals both are
   the same arrangement of the same exact operations, so the equality needs no finiteness and no algebraic law beyond
   0 + x = x and max (−∞) x = x.
   The modules: AttnBlock (what the body leaves in the output block, as one term of its input blocks), AttnSpec (the
   slice function and the whole-array result function), AttnKernel (the body's term is the slice function), AttnArray
   (the sixteen blocks are the result function's blocks and cover the array), AttnRefA / AttnRefB (the reference's
   stages are the slice function's stages), and the general lemma files Lib*. -/
import proofs.«105342_j28664611733586_1_alg».proof.Defs
import proofs.«105342_j28664611733586_1_alg».proof.Proof.Gen.Kernel
import proofs.«105342_j28664611733586_1_alg».proof.Proof.Gen.Kernel.Skeleton
import proofs.«105342_j28664611733586_1_alg».proof.Proof.Gen.Kernel.Launch
import proofs.«105342_j28664611733586_1_alg».proof.Proof.Gen.Kernel.Points
import proofs.«105342_j28664611733586_1_alg».proof.Proof.Gen.Kernel.Frame
import proofs.«105342_j28664611733586_1_alg».proof.Proof.Gen.KernelIdeal
import proofs.«105342_j28664611733586_1_alg».proof.Proof.Gen.KernelIdeal.Skeleton
import proofs.«105342_j28664611733586_1_alg».proof.Proof.Gen.KernelIdeal.Launch
import proofs.«105342_j28664611733586_1_alg».proof.Proof.Gen.KernelIdeal.Points
import proofs.«105342_j28664611733586_1_alg».proof.Proof.Gen.KernelIdeal.Frame
import proofs.«105342_j28664611733586_1_alg».proof.Proof.Gen.ReferenceIdeal
import proofs.«105342_j28664611733586_1_alg».proof.Proof.Gen.KernelIdeal.Value
import proofs.«105342_j28664611733586_1_alg».proof.Proof.Gen.ReferenceIdeal.Run
import proofs.«105342_j28664611733586_1_alg».proof.Proof.Gen.ReferenceIdeal.Read
import proofs.«105342_j28664611733586_1_alg».proof.Proof.Gen.Pre_finite_inputs
import proofs.«105342_j28664611733586_1_alg».proof.Proof.AttnArray
import proofs.«105342_j28664611733586_1_alg».proof.Proof.AttnRefB
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- On the extended reals the kernel's result array ends at the result function of its arguments, and so does the
    reference's, from arguments that agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
